-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== Proof.LibMatmulNT.lean ====
/-
  A matrix product with the right operand contracted on its LAST axis, read at an index, at the ideal values.

  For an M×K matrix A and an N×K matrix B, the product that contracts axis 1 of both (dimension numbers
  [1], [1], [0], [0], no batch axis: A · Bᵀ) has at (a, b) the entry

      acc (a, b) + ∑ c < K, A (a, c) · B (b, c)

  on the extended reals, and just the sum when the accumulator is the zero splat. The index of the contraction is
  the one coordinate c; the operand indices at output (a, b) and contraction position c are (a, c) and (b, c).
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

variable {M K N : Nat}

/-- The left operand's index at output (a, b) and contraction position c is (a, c). -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have c2 := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact c2

/-- The right operand's index at output (a, b) and contraction position c is (b, c). -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have c2 := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A · Bᵀ accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![N, K]⟩ φ₂) (acc : FVec Ideal ⟨2, ![M, N]⟩ .f32) (a : Fin M) (b : Fin N) :
    FloatOps.matmul (DotDims.transposedRhs M K N) prec A B acc (ix2 a b)
      = acc (ix2 a b) + ∑ c : Fin K, A (ix2 a c) * B (ix2 b c) := by
  rw [Ideal.matmul_apply, ← Equiv.sum_comp (contrEquiv1 (DotDims.transposedRhs M K N) K rfl rfl).symm]
  refine congrArg (acc (ix2 a b) + ·) (Finset.sum_congr rfl fun c _ => ?_)
  rw [lhsIdx_transposedRhs, rhsIdx_transposedRhs]

/-- A · Bᵀ into the zero splat, at (a, b): the sum over the contracted coordinate. -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.MatmulNT

end
-- ==== Proof.Spec.lean ====
/-
  The specification both programs are proved against, and the one law that joins their two arrangements.

  The linear layer: for x of 8192 rows and w of 4096 rows, each of 4096 columns,

      y (i, j) = ∑ k < 4096, x (i, k) · w (j, k)          (y = x · wᵀ)

  on the extended reals. One program forms each entry as this single sum; the other cuts the 4096 columns into four
  consecutive blocks of 1024, forms the four partial sums, and adds them one after the other. Addition on the extended
  reals is commutative and associative (it is a commutative monoid: ⊥ absorbs), so regrouping a finite sum needs no
  finiteness of the terms: `sum_colBlocks`.
-/
import Idealize.ShloMosaic.Lib.ValueIdx
import Idealize.ShloMosaic.PureOps.Ideal

noncomputable section

open scoped BigOperators

namespace Cert.Linear

open Idealize.ShloMosaic Idealize.ShloMosaic.ValueIdx

/-- The linear layer y = x · wᵀ, entry by entry: y (i, j) = ∑ k, x (i, k) · w (j, k). -/
def linear (x : FVec Ideal ⟨2, ![8192, 4096]⟩ .f32) (w : FVec Ideal ⟨2, ![4096, 4096]⟩ .f32) :
    FVec Ideal ⟨2, ![8192, 4096]⟩ .f32 :=
  fun i => ∑ k : Fin 4096, x (ix2 (i 0) k) * w (ix2 (i 1) k)

theorem linear_apply (x : FVec Ideal ⟨2, ![8192, 4096]⟩ .f32) (w : FVec Ideal ⟨2, ![4096, 4096]⟩ .f32)
    (a : Fin 8192) (b : Fin 4096) :
    linear x w (ix2 a b) = ∑ k : Fin 4096, x (ix2 a k) * w (ix2 b k) := rfl

/-- Column k of the b-th block of 1024 columns: column 1024 · b + k of the 4096. -/
def colOf (b : Fin 4) (k : Fin 1024) : Fin 4096 := ⟨1024 * b.val + k.val, by omega⟩

@[simp] theorem colOf_val (b : Fin 4) (k : Fin 1024) : (colOf b k).val = 1024 * b.val + k.val := rfl

/-- A sum over the 4096 columns is the four block sums added one after the other, in any commutative monoid. -/
theorem sum_colBlocks {M : Type*} [AddCommMonoid M] (g : Fin 4096 → M) :
    ∑ k : Fin 4096, g k
      = (∑ k : Fin 1024, g (colOf 0 k)) + (∑ k : Fin 1024, g (colOf 1 k)) + (∑ k : Fin 1024, g (colOf 2 k))
          + ∑ k : Fin 1024, g (colOf 3 k) := by
  have e : ∑ k : Fin 4096, g k = ∑ p : Fin 4 × Fin 1024, g (colOf p.1 p.2) :=
    (Fintype.sum_equiv (finProdFinEquiv (m := 4) (n := 1024)) (fun p => g (colOf p.1 p.2)) g
      (fun p => congrArg g (Fin.ext (by simp [colOf, finProdFinEquiv]; omega)))).symm
  rw [e, Fintype.sum_prod_type, Fin.sum_univ_four]

end Cert.Linear

end
-- ==== Proof.KernelPayload.lean ====
/-
  One block of the product, entry by entry.

  For a block x0 of 256 rows and the whole matrix w0 of 4096 rows, each of 4096 columns, the value the body stores is
  the matrix product that contracts the column axis of both, into the zero block:

      (x0 · w0ᵀ) (r, n) = ∑ k < 4096, x0 (r, k) · w0 (n, k).

  The change of format of x0 on the way in is the identity on the extended reals, and re-laying w0 to its own shape
  changes nothing.
-/
import proofs.«156567_g2000205639833174_pallasbulk_1132_16_alg».proof.Proof.Gen.KernelIdeal.Skeleton
import proofs.«156567_g2000205639833174_pallasbulk_1132_16_alg».proof.Proof.LibMatmulNT
import Idealize.ShloMosaic.Lib.Pipeline.Value

noncomputable section

open scoped BigOperators

namespace Cert.KernelIdeal.OneDot

open Cert.KernelIdeal Cert.KernelIdeal.Gen Idealize.ShloMosaic Idealize.ShloMosaic.ValueIdx

/-- The product's dimension numbers are those of A · Bᵀ for a 256×4096 block and a 4096×4096 matrix: the same six lists. -/
theorem dims_eq : dot_S256x4096_S4096x4096_S256x4096_1_1_0_0_n_n = DotDims.transposedRhs 256 4096 4096 := rfl

/-- The stored block at (r, n): the sum over the 4096 columns of x0 (r, k) · w0 (n, k). -/
theorem payload_apply (x0 : Vec Ideal S256x4096 .f32) (w0 : Vec Ideal S4096x4096 .bf16) (r : Fin 256) (n : Fin 4096) :
    Gen.k0_pay1 x0 w0 (ix2 r n) = ∑ k : Fin 4096, x0 (ix2 r k) * w0 (ix2 n k) := by
  unfold Gen.k0_pay1
  rw [shapeCast_self]
  exact MatmulNT.matmul_zero_apply (M := 256) (K := 4096) (N := 4096) none x0 w0 r n

end Cert.KernelIdeal.OneDot

end
-- ==== Proof.KernelBlockProduct.lean ====
/-
  A block of rows of the product is the product of that block of rows.

  Write y = X · Wᵀ for X of 8192 rows and W of 4096 rows, each of 4096 columns. Cut the rows of X into 32 consecutive
  blocks of 256. If x0 holds block b of X (rows 256·b … 256·b + 255) and w0 is all of W, then

      (x0 · w0ᵀ) (r, n) = ∑ k < 4096, X (256·b + r, k) · W (n, k) = y (256·b + r, n):

  the sum over the columns only reads row 256·b + r of X and row n of W.
-/
import proofs.«156567_g2000205639833174_pallasbulk_1132_16_alg».proof.Proof.KernelPayload
import proofs.«156567_g2000205639833174_pallasbulk_1132_16_alg».proof.Proof.Spec

noncomputable section

open scoped BigOperators

namespace Cert.KernelIdeal.OneDot

open Cert.KernelIdeal Cert.KernelIdeal.Gen Idealize.ShloMosaic Idealize.ShloMosaic.TcCoe Idealize.SL.Sem
open Idealize.ShloMosaic.ValueIdx

/-- If x0 holds rows 256·b … 256·b + 255 of X and w0 is W, the stored block at j = (r, n) is the whole product at
    i = (256·b + r, n): both are the sum over k of X (256·b + r, k) · W (n, k). -/
theorem block_product_apply (X : S8192x4096.Idx → EReal) (W : S4096x4096.Idx → EReal)
    (x0 : Vec Ideal S256x4096 .f32) (w0 : Vec Ideal S4096x4096 .bf16) (b : Nat)
    (hx : ∀ (y : S256x4096.Idx) (i : S8192x4096.Idx), (i 0).val = b * 256 + (y 0).val → (i 1).val = (y 1).val → x0 y = X i)
    (hw : ∀ y, w0 y = W y)
    (j : S256x4096.Idx) (i : S8192x4096.Idx) (h0 : (i 0).val = b * 256 + (j 0).val) (h1 : (i 1).val = (j 1).val) :
    Gen.k0_pay1 x0 w0 j = Cert.Linear.linear X W i := by
  obtain ⟨r, n, rfl⟩ : ∃ (r : Fin 256) (n : Fin 4096), j = ix2 r n := ⟨j 0, j 1, eq_ix2 j⟩
  rw [payload_apply]
  show _ = ∑ k : Fin 4096, X (ix2 (i 0) k) * W (ix2 (i 1) k)
  refine Finset.sum_congr rfl fun k _ => ?_
  have e1 : i 1 = n := Fin.ext h1
  have ex : x0 (ix2 r k) = X (ix2 (i 0) k) := hx (ix2 r k) (ix2 (i 0) k) h0 rfl
  have ew : w0 (ix2 n k) = W (ix2 (i 1) k) := by rw [e1]; exact hw _
  rw [ex, ew]

end Cert.KernelIdeal.OneDot

end
-- ==== Proof.KernelBlocks.lean ====
/-
  What each of the 32 grid points reads.

  The grid is 2 × 16, its points numbered t = 16·p + i in order. At point t the first input block is rows
  256·t … 256·t + 255 of the first argument (block row index t, column block 0), the second input block is the whole
  weight matrix (block index (0, 0) at every point), and the output block sits where the first input block does.
  The weight matrix the region reads is the second argument after a change of format, which is the identity on the
  extended reals: so the second input block is the second argument itself.
-/
import proofs.«156567_g2000205639833174_pallasbulk_1132_16_alg».proof.Proof.Gen.KernelIdeal.Frame
import Idealize.ShloMosaic.Lib.Pipeline.Value
import Idealize.ShloMosaic.Lib.ValueIdx
import Idealize.ShloMosaic.PureOps.Ideal
import Idealize.ShloMosaic.Lib.Tactic

noncomputable section

open scoped BigOperators

namespace Cert.KernelIdeal.OneDot

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The offset (0, 0) is the zero offset. -/
theorem zero_offsets : (![0, 0] : Fin 2 → Nat) = fun _ => 0 := funext fun a => by fin_cases a <;> rfl

/-- The weight matrix as the region finds it is the second argument: the change of format before the region is the
    identity on the extended reals. -/
theorem weights_at_entry (c : Dev nD) :
    (V m c main_v0 : S4096x4096.Idx → EReal) = (m ((c : Thread nD τ).loc main_arg1) : S4096x4096.Idx → EReal) := by
  dsimp only [Gen.V, Gen.hostOps0]; after_results; rfl

/-- The block indices at point t, over the 32 points: the rows' block and the output's block are block row t, column
    block 0; the weights' block is (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first input block at point t, at (r, k), is the first argument at (256·t + r, k). -/
theorem rows_block_apply (c : Dev nD) (t : Fin cfg0.N) (y : S256x4096.Idx) (i : S8192x4096.Idx)
    (h0 : (i 0).val = t.val * 256 + (y 0).val) (h1 : (i 1).val = (y 1).val) :
    (iblk m c 0 t : Vec Ideal S256x4096 .f32) y = (m ((c : Thread nD τ).loc main_arg0) : S8192x4096.Idx → EReal) i := by
  obtain ⟨e0, e1, -⟩ := block_indices t
  unfold iblk
  rw [View.read_apply]
  show V m c main_arg0 _ = m (c.tc.loc main_arg0) _
  rw [V_main_arg0]
  refine congrArg _ ?_
  funext a
  apply Fin.ext
  match a with
  | ⟨0, _⟩ => show win0_0.index t 0 * 256 + 1 * (y 0).val = (i 0).val; rw [e0, h0]; omega
  | ⟨1, _⟩ => show win0_0.index t 1 * 4096 + 1 * (y 1).val = (i 1).val; rw [e1, h1]; omega

/-- The second input block at any point is the second argument, entry by entry. -/
theorem weights_block_apply (c : Dev nD) (t : Fin cfg0.N) (y : S4096x4096.Idx) :
    (iblk m c 1 t : Vec Ideal S4096x4096 .bf16) y = (m ((c : Thread nD τ).loc main_arg1) : S4096x4096.Idx → EReal) y := by
  obtain ⟨-, -, e0, e1, -⟩ := block_indices t
  unfold iblk
  rw [View.read_apply]
  show (V m c main_v0 : S4096x4096.Idx → EReal) _ = _
  rw [weights_at_entry]
  refine congrArg _ ?_
  funext a
  apply Fin.ext
  match a with
  | ⟨0, _⟩ => show win0_1.index t 0 * 4096 + 1 * (y 0).val = (y 0).val; rw [e0]; omega
  | ⟨1, _⟩ => show win0_1.index t 1 * 4096 + 1 * (y 1).val = (y 1).val; rw [e1]; omega

end Cert.KernelIdeal.OneDot

end
-- ==== Proof.KernelValue.lean ====
/-
  The single-dot program's result array: y = x · wᵀ, entry by entry.

  Point t of the 32 writes back block t of the result: rows 256·t … 256·t + 255, all 4096 columns. What it writes is
  the product of its block of rows of x with all of w, which is that block of rows of x · wᵀ. The 32 blocks cover the
  8192 rows (row i is in block i / 256), so after the run the result array is x · wᵀ.
-/
import proofs.«156567_g2000205639833174_pallasbulk_1132_16_alg».proof.Proof.Gen.KernelIdeal.Value
import proofs.«156567_g2000205639833174_pallasbulk_1132_16_alg».proof.Proof.LibMatmulNT
import proofs.«156567_g2000205639833174_pallasbulk_1132_16_alg».proof.Proof.Spec
import proofs.«156567_g2000205639833174_pallasbulk_1132_16_alg».proof.Proof.KernelBlockProduct
import proofs.«156567_g2000205639833174_pallasbulk_1132_16_alg».proof.Proof.KernelBlocks

noncomputable section

open scoped BigOperators

namespace Cert.KernelIdeal.OneDot

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What point t writes back is block t of the product of the two argument arrays. -/
theorem written_block_eq (c : Dev nD) (t : Fin cfg0.N) :
    (dats m 0 c).flushed 2 t = ((cfg0.win 2).blk t).view.read (Elt Ideal)
      (Cert.Linear.linear (m ((c : Thread nD τ).loc main_arg0)) (m ((c : Thread nD τ).loc main_arg1))) := by
  rw [Value.flushed2]
  unfold Gen.out0_2
  rw [View.canon_unit_zero zero_offsets]
  simp only [View.ld_unit_zero (S := S256x4096) zero_offsets, View.ld_unit_zero (S := S4096x4096) zero_offsets]
  obtain ⟨-, -, -, -, e0, e1⟩ := block_indices t
  funext j
  show Gen.k0_pay1 (iblk m c 0 t) (iblk m c 1 t) j = Cert.Linear.linear _ _ (((cfg0.win 2).blk t).view.emb j)
  refine block_product_apply _ _ _ _ t.val (fun y i h0 h1 => rows_block_apply m c t y i h0 h1)
    (fun y => weights_block_apply m c t y) j _ ?_ ?_
  · show win0_2.index t 0 * 256 + 1 * (j 0).val = t.val * 256 + (j 0).val
    rw [e0]; omega
  · show win0_2.index t 1 * 4096 + 1 * (j 1).val = (j 1).val
    rw [e1]; omega

/-- An index of the result array is in point t's block iff each coordinate is in the block's range on its axis. -/
theorem mem_block_iff (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v1).slice (win0_2.rect t)).set ↔ _
  rw [View.set_slice_whole, Rect.mem_set_unit]
  exact Iff.rfl

/-- Every index of the result array is in some point's block: row i is in the block of point i / 256. -/
theorem rows_covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, e0, e1⟩ := block_indices t
  refine ⟨t, flush0_2 t, ?_⟩
  rw [mem_block_iff]
  intro a
  match a with
  | ⟨0, _⟩ =>
    show win0_2.index t 0 * 256 ≤ (i 0).val ∧ (i 0).val < win0_2.index t 0 * 256 + 256
    rw [e0, ht]; omega
  | ⟨1, _⟩ =>
    show win0_2.index t 1 * 4096 ≤ (i 1).val ∧ (i 1).val < win0_2.index t 1 * 4096 + 4096
    rw [e1]; omega

/-- The result array after the run is the product of the two argument arrays. -/
theorem result_array_eq (c : Dev nD) : (dats m 0 c).arrAt 2 cfg0.N
    = Cert.Linear.linear (m ((c : Thread nD τ).loc main_arg0)) (m ((c : Thread nD τ).loc main_arg1)) :=
  (dats m 0 c).arrAt_eq_of_cover 2 _ (fun t _ => written_block_eq m c t) rows_covered

/-- The run: every execution ends with the result array at x · wᵀ of the two arguments, and the arguments unchanged. -/
theorem run : θ_run (defs (F := Ideal)) (onTc (τ := τ) (main (F := Ideal))) ⟨m, fun _ => 0, ρ⟩ fun r => ∀ c : Dev nD,
      r.2.mem ((c : Thread nD τ).loc main_v1) = Cert.Linear.linear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array_eq m c), (h c).2⟩) (Value.run_blocks m ρ)

end Cert.KernelIdeal.OneDot

end
-- ==== Proof.RefData.lean ====
/-
  The K-blocked matrix product's run, point by point: what its accumulator holds after each grid point.

  The grid is 8 × 8 × 4: point t has coordinates (i, j, k) with t = (8 i + j) · 4 + k, so k = t mod 4. At a point the
  body forms the partial product P of its two input blocks — x's block (i, k), 1024 × 1024, and w's block (j, k),
  512 × 1024 — and

    * at k = 0 stores P into the accumulator (a scratch buffer of 1024 × 512 the body keeps between points),
    * at k ≠ 0 stores (accumulator + P) into it,
    * at k = 3 then copies the accumulator into the output's block (i, j), which is written back there and only there.

  So after point t the accumulator holds `acc t`, by recursion on t: the partial product at a multiple of 4, the
  previous contents plus the partial product otherwise. The output's buffer holds the accumulator at the points with
  k = 3 and is left untouched at the others. This module states that data; the body's runs are in `RefBody`.
-/
import proofs.«156567_g2000205639833174_pallasbulk_1132_16_alg».proof.Proof.Gen.ReferenceIdeal.Skeleton
import proofs.«156567_g2000205639833174_pallasbulk_1132_16_alg».proof.Proof.Gen.ReferenceIdeal.Frame

set_option maxRecDepth 16384

noncomputable section

namespace Cert.ReferenceIdeal.KBlocked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions on the k coordinate, decided over the grid -/

/-- "k = 0", as the body computes it from the third grid coordinate. -/
abbrev condFirst (i : grid0.Coords) : Prop :=
  Scalar.cmpi .ne (Scalar.extui (Scalar.cmpi .eq (BitVec.ofNat 32 (i 2).val) 0#32)) 0#32 = 1#1
/-- It holds at the points t with t mod 4 = 0. -/
theorem hcondFirst : ∀ t : Fin cfg0.N, condFirst (grid0.coords t) ↔ t.val % 4 = 0 :=
  (by decide +kernel : ∀ t : Fin grid0.N, condFirst (grid0.coords t) ↔ t.val % 4 = 0)

/-- "k ≠ 0", as the body computes it. -/
abbrev condLater (i : grid0.Coords) : Prop :=
  Scalar.cmpi .ne (Scalar.extui (Scalar.cmpi .ne (BitVec.ofNat 32 (i 2).val) 0#32)) 0#32 = 1#1
/-- It holds at the points t with t mod 4 ≠ 0. -/
theorem hcondLater : ∀ t : Fin cfg0.N, condLater (grid0.coords t) ↔ ¬ t.val % 4 = 0 :=
  (by decide +kernel : ∀ t : Fin grid0.N, condLater (grid0.coords t) ↔ ¬ t.val % 4 = 0)

/-- "k = 3" (the last k). -/
abbrev condLast (i : grid0.Coords) : Prop := k0_cond3 i = 1#1
/-- It holds at the points t with t mod 4 = 3. -/
theorem hcondLast : ∀ t : Fin cfg0.N, condLast (grid0.coords t) ↔ t.val % 4 = 3 :=
  (by decide +kernel : ∀ t : Fin grid0.N, condLast (grid0.coords t) ↔ t.val % 4 = 3)

/-! ## Where the output's buffer is untouched -/

/-- The inputs are stored into nowhere and read everywhere: never idle. -/
theorem live0 : ∀ t : Fin cfg0.N, cfg0.idle 0 (grid0.coords t) = false := fun _ => rfl
theorem live1 : ∀ t : Fin cfg0.N, cfg0.idle 1 (grid0.coords t) = false := fun _ => rfl
/-- Away from k = 3 the body stores nothing into the output's buffer … -/
theorem idle2 : ∀ t : Fin cfg0.N, ¬ t.val % 4 = 3 → cfg0.idle 2 (grid0.coords t) = true :=
  (by decide +kernel : ∀ t : Fin grid0.N, ¬ t.val % 4 = 3 → cfg0.idle 2 (grid0.coords t) = true)
/-- … and the block is not written back there. -/
theorem noFlush2 (t : Fin cfg0.N) (h : ¬ t.val % 4 = 3) : (cfg0.win 2).flush t = false :=
  Bool.eq_false_iff.mpr fun hf => h ((flush0_2 t).mp hf)
/-- At k = 3 it stores the whole block. -/
theorem live2 : ∀ t : Fin cfg0.N, t.val % 4 = 3 → cfg0.idle 2 (grid0.coords t) = false :=
  (by decide +kernel : ∀ t : Fin grid0.N, t.val % 4 = 3 → cfg0.idle 2 (grid0.coords t) = false)

/-! ## The buffers the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
/-- The accumulator: the kernel's one scratch buffer, whole. -/
abbrev accM : Memref sig .tc .vmem S1024x512 .f32 := Memref.whole cc0_scratch0

/-- The launch's invariant with the accumulator as a buffer owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The accumulator after each point -/

/-- x's block and w's block at point t. -/
abbrev xblk (c : Dev nD) (t : Fin cfg0.N) : Vec F S1024x1024 .f32 := iblk m c 0 t
abbrev wblk (c : Dev nD) (t : Fin cfg0.N) : Vec F S512x1024 .f32 := iblk m c 1 t

/-- What the accumulator holds after point n: the partial product of the point's blocks where n mod 4 = 0, what
    the point before left plus that partial product elsewhere. -/
def acc (c : Dev nD) : (n : ℕ) → n < cfg0.N → Vec F S1024x512 .f32
  | 0, hn => k0_pay2 (xblk m c ⟨0, hn⟩) (wblk m c ⟨0, hn⟩)
  | n + 1, hn =>
    if (n + 1) % 4 = 0 then k0_pay2 (xblk m c ⟨n + 1, hn⟩) (wblk m c ⟨n + 1, hn⟩)
    else k0_pay3 (xblk m c ⟨n + 1, hn⟩) (wblk m c ⟨n + 1, hn⟩) (acc c n (Nat.lt_of_succ_lt hn))

/-- At a point with k = 0: the partial product. -/
theorem acc_first (c : Dev nD) (t : Fin cfg0.N) (h : t.val % 4 = 0) :
    acc m c t.val t.isLt = k0_pay2 (xblk m c t) (wblk m c t) := by
  obtain ⟨n, hn⟩ := t
  cases n with
  | zero => rfl
  | succ n => exact if_pos h

/-- At a point with k ≠ 0: the point before's contents plus the partial product. -/
theorem acc_later (c : Dev nD) (t : Fin cfg0.N) (h : ¬ t.val % 4 = 0) :
    acc m c t.val t.isLt
      = k0_pay3 (xblk m c t) (wblk m c t) (acc m c (t.val - 1) (Nat.lt_of_le_of_lt (Nat.sub_le _ _) t.isLt)) := by
  obtain ⟨n, hn⟩ := t
  cases n with
  | zero => exact absurd (Nat.zero_mod _) h
  | succ n => exact if_neg h

/-! ## The invariant between points, and the proof data -/

/-- Before point n: at the start the launch's invariant (the accumulator at anything); afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) accM fullShare (acc m c (n - 1) (by omega))) ∗ (∃ r, prngReg c r)) := by
  cases n with
  | zero => exact absurd rfl hz
  | succ n => rfl

/-- The proof data on core c: the arrays as launched; after the body at point t each input's buffer at its block and
    the output's at the accumulator's contents (consulted only where k = 3: elsewhere the buffer is untouched); the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.ReferenceIdeal.KBlocked

end
-- ==== Proof.RefRuns.lean ====
/-
  The K-blocked body run once, in each of its three cases.

  The body loads its two input blocks x₀ (1024 × 1024) and w₀ (512 × 1024) whole, and then, by the grid's k coordinate:
    * k = 0: stores the partial product P(x₀, w₀) over the whole accumulator, whatever it held;
    * k = 1, 2: loads the accumulator's contents s and stores s + P(x₀, w₀) over it;
    * k = 3: does the same and then copies the accumulator, whole, into the output's buffer.
  Every load and store is of a whole buffer, so what a store leaves, read back, is its payload, and what a load reads is
  the buffer's contents. Each run is stated from the buffers at named contents to the buffers at named contents; a
  buffer the case does not touch is not mentioned.
-/
import proofs.«156567_g2000205639833174_pallasbulk_1132_16_alg».proof.Proof.RefData
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.ReferenceIdeal.KBlocked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## Whole-buffer loads and stores read back -/

/-- The zero offsets of a whole-buffer rectangle, in the spelling the rectangles' lemmas take. -/
theorem zeroOffsets : (![0, 0] : Fin 2 → ℕ) = fun _ => 0 := by
  funext a; fin_cases a <;> rfl

/-- A load of the whole x block reads the buffer's contents. -/
theorem load_x (a : Memref sig .tc .vmem S1024x1024 .f32) (h : a.IsWhole) (x : Vec F S1024x1024 .f32) :
    View.readAt (Elt F) a.view (Rect.unit ![0, 0] S1024x1024.size inb_S1024x1024_S1024x1024_0_0).toLoadRect (h.unread x) = x := by
  rw [View.readAt_eq_ld, h.read_unread, View.ld_unit_zero zeroOffsets]

/-- A load of the whole w block reads the buffer's contents. -/
theorem load_w (a : Memref sig .tc .vmem S512x1024 .f32) (h : a.IsWhole) (w : Vec F S512x1024 .f32) :
    View.readAt (Elt F) a.view (Rect.unit ![0, 0] S512x1024.size inb_S512x1024_S512x1024_0_0).toLoadRect (h.unread w) = w := by
  rw [View.readAt_eq_ld, h.read_unread, View.ld_unit_zero zeroOffsets]

/-- A load of the whole accumulator (or output buffer) reads its contents. -/
theorem load_acc (a : Memref sig .tc .vmem S1024x512 .f32) (h : a.IsWhole) (s : Vec F S1024x512 .f32) :
    View.readAt (Elt F) a.view (Rect.unit ![0, 0] S1024x512.size inb_S1024x512_S1024x512_0_0).toLoadRect (h.unread s) = s := by
  rw [View.readAt_eq_ld, h.read_unread, View.ld_unit_zero zeroOffsets]

/-- One store over the whole of a 1024 × 512 buffer, read back, is its payload, whatever the buffer held. -/
theorem read_stored (v : View sig .tc .vmem S1024x512 .f32) (f : v.ty.Contents (Elt F)) (p : S1024x512.Idx → Elt F .f32) :
    v.read (Elt F) (v.writes (Elt F) f [⟨Rect.unit ![0, 0] S1024x512.size inb_S1024x512_S1024x512_0_0, p⟩]) = p := by
  rw [View.read_writes_eq_canon _ _ _ (fun y => ⟨_, List.mem_singleton_self _, View.mem_set_unit_zero zeroOffsets inb_S1024x512_S1024x512_0_0 y⟩),
    View.canon_unit_zero zeroOffsets]

/-! ## The three runs -/

set_option maxHeartbeats 1000000 in
/-- k = 0: the accumulator, at anything, ends at the partial product. -/
theorem runFirst (c : Dev nD) (i : grid0.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (hc0 : condFirst i) (hc1 : ¬ condLater i) (hc2 : ¬ condLast i)
    (x0 : Vec F S1024x1024 .f32) (w0 : Vec F S512x1024 .f32) (E : Set ℕ) (K : PUnit → sProp 𝕄) :
    iprop(owns (c : Thread nD τ) arg3 fullShare x0 ∗ owns (c : Thread nD τ) arg4 fullShare w0 ∗ (∃ d, owns (c : Thread nD τ) arg6 fullShare d)
        ∗ (iprop(owns (c : Thread nD τ) arg3 fullShare x0 ∗ owns (c : Thread nD τ) arg4 fullShare w0
              ∗ owns (c : Thread nD τ) arg6 fullShare (k0_pay2 x0 w0)) -∗ K ⟨⟩))
      ⊢ wp frame (wpE (defs₀ (F := F)) Variants.none c none) E (cc0__linear_kernel i arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%d6, %f6, -, H6⟩, Hk⟩
  obtain rfl := harg3.eq_unread hf0; obtain rfl := harg4.eq_unread hf1
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H6
  ipureintro
  rw [read_stored, load_x, load_w]

set_option maxHeartbeats 1000000 in
/-- k = 1, 2: the accumulator, at s, ends at s plus the partial product. -/
theorem runMiddle (c : Dev nD) (i : grid0.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (hc0 : ¬ condFirst i) (hc1 : condLater i) (hc2 : ¬ condLast i)
    (x0 : Vec F S1024x1024 .f32) (w0 : Vec F S512x1024 .f32) (s : Vec F S1024x512 .f32) (E : Set ℕ) (K : PUnit → sProp 𝕄) :
    iprop(owns (c : Thread nD τ) arg3 fullShare x0 ∗ owns (c : Thread nD τ) arg4 fullShare w0 ∗ owns (c : Thread nD τ) arg6 fullShare s
        ∗ (iprop(owns (c : Thread nD τ) arg3 fullShare x0 ∗ owns (c : Thread nD τ) arg4 fullShare w0
              ∗ owns (c : Thread nD τ) arg6 fullShare (k0_pay3 x0 w0 s)) -∗ K ⟨⟩))
      ⊢ wp frame (wpE (defs₀ (F := F)) Variants.none c none) E (cc0__linear_kernel i arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f6, %hf6, H6⟩, Hk⟩
  obtain rfl := harg3.eq_unread hf0; obtain rfl := harg4.eq_unread hf1; obtain rfl := harg6.eq_unread hf6
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H6
  ipureintro
  rw [read_stored, load_x, load_w, load_acc]

set_option maxHeartbeats 1000000 in
/-- k = 3: the accumulator, at s, ends at s plus the partial product, and the output's buffer, at anything, ends at
    the same: the accumulator is loaded again after the store and copied over it whole. -/
theorem runLast (c : Dev nD) (i : grid0.Coords)
    (arg3 : Memref sig .tc .vmem S1024x1024 .f32) (harg3 : arg3.IsWhole) (arg4 : Memref sig .tc .vmem S512x1024 .f32) (harg4 : arg4.IsWhole)
    (arg5 : Memref sig .tc .vmem S1024x512 .f32) (harg5 : arg5.IsWhole) (arg6 : Memref sig .tc .vmem S1024x512 .f32) (harg6 : arg6.IsWhole)
    (hc0 : ¬ condFirst i) (hc1 : condLater i) (hc2 : condLast i)
    (x0 : Vec F S1024x1024 .f32) (w0 : Vec F S512x1024 .f32) (s : Vec F S1024x512 .f32) (E : Set ℕ) (K : PUnit → sProp 𝕄) :
    iprop(owns (c : Thread nD τ) arg3 fullShare x0 ∗ owns (c : Thread nD τ) arg4 fullShare w0
        ∗ (∃ d, owns (c : Thread nD τ) arg5 fullShare d) ∗ owns (c : Thread nD τ) arg6 fullShare s
        ∗ (iprop(owns (c : Thread nD τ) arg3 fullShare x0 ∗ owns (c : Thread nD τ) arg4 fullShare w0
              ∗ owns (c : Thread nD τ) arg5 fullShare (k0_pay3 x0 w0 s) ∗ owns (c : Thread nD τ) arg6 fullShare (k0_pay3 x0 w0 s)) -∗ K ⟨⟩))
      ⊢ wp frame (wpE (defs₀ (F := F)) Variants.none c none) E (cc0__linear_kernel i arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%d5, %f5, -, H5⟩, ⟨%f6, %hf6, H6⟩, Hk⟩
  obtain rfl := harg3.eq_unread hf0; obtain rfl := harg4.eq_unread hf1; obtain rfl := harg6.eq_unread hf6
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr
    swap; · iexact H5
    ipureintro
    sl_unfold_words
    rw [read_stored, View.readCov_unit_zero _ zeroOffsets, load_x, load_w, load_acc]
  iexists _; isplitr
  swap; · iexact H6
  ipureintro
  sl_unfold_words
  rw [read_stored, load_x, load_w, load_acc]

end Cert.ReferenceIdeal.KBlocked

end
-- ==== Proof.RefBody.lean ====
/-
  The K-blocked program's frame run: at every grid point the body, called with the buffers the pipeline hands it, leaves
  them as the proof data says.

  By the point's k = t mod 4: at k = 0 the accumulator — at anything at the very first point, at what the point before
  left afterwards — ends at the point's partial product; at k = 1, 2 it goes from what the point before left to that
  plus the point's partial product, and in both cases the output's buffer is not touched; at k = 3 the accumulator goes
  the same way and the output's buffer, at anything, ends at the accumulator's new contents. The inputs' buffers hold
  their blocks before and after. Between points the accumulator's contents are carried in the invariant; the launch's
  invariant yields it before point 0 (the accumulator at anything) and gets it back after the last point.
-/
import proofs.«156567_g2000205639833174_pallasbulk_1132_16_alg».proof.Proof.RefRuns
import Idealize.ShloMosaic.Lib.Pipeline.FrameBody
import Idealize.ShloMosaic.Lib.Ring
import Idealize.ShloMosaic.Lib.Tactic

set_option maxRecDepth 16384

noncomputable section

namespace Cert.ReferenceIdeal.KBlocked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by cases on k = t mod 4. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 256 := lt_of_lt_of_eq t.isLt (show cfg0.N = 256 from N_0)
  by_cases h0 : t.val % 4 = 0
  · -- k = 0
    have h3 : ¬ t.val % 4 = 3 := by omega
    rw [Dat.leavesExact_idle (dats m 0 c) 2 t (idle2 t h3) (noFlush2 t h3)]
    rw [acc_first m c t h0]
    by_cases hz : t.val = 0
    · rw [PhiS_castSucc m c t, PhiS_zero m c _ _ hz, PhiA_eq]
      iintro ⟨⟨HS, Hg⟩, Ho, ⟨%d0, H0⟩, ⟨%d1, H1⟩, H2⟩
      iapply (runFirst c (grid0.coords t) _ _ _ _ _ _ _ _ ((hcondFirst t).mpr h0) (fun h => (hcondLater t).mp h h0)
        (fun h => h3 ((hcondLast t).mp h)) (xblk m c t) (wblk m c t) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
    · rw [PhiS_castSucc m c t, PhiS_pos m c _ _ hz]
      iintro ⟨⟨HS, Hg⟩, Ho, ⟨%d0, H0⟩, ⟨%d1, H1⟩, H2⟩
      iapply (runFirst c (grid0.coords t) _ _ _ _ _ _ _ _ ((hcondFirst t).mpr h0) (fun h => (hcondLater t).mp h h0)
        (fun h => h3 ((hcondLast t).mp h)) (xblk m c t) (wblk m c t) Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexact H2
  · have hz : t.val ≠ 0 := fun h => h0 (by rw [h])
    rw [acc_later m c t h0]
    rw [PhiS_castSucc m c t, PhiS_pos m c _ _ hz]
    by_cases h3 : t.val % 4 = 3
    · -- k = 3
      rw [show (dats m 0 c).leavesExact 2 t = owns (c : Thread nD τ) (ms2 t) fullShare ((dats m 0 c).after 2 t) from by
        unfold Dat.leavesExact; rw [live2 t h3], after2, acc_later m c t h0]
      iintro ⟨⟨HS, Hg⟩, Ho, ⟨%d0, H0⟩, ⟨%d1, H1⟩, ⟨%d2, H2⟩⟩
      iapply (runLast c (grid0.coords t) _ _ _ _ _ _ _ _ (fun h => h0 ((hcondFirst t).mp h)) ((hcondLater t).mpr h0)
        ((hcondLast t).mpr h3) (xblk m c t) (wblk m c t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- k = 1, 2
      rw [Dat.leavesExact_idle (dats m 0 c) 2 t (idle2 t h3) (noFlush2 t h3)]
      iintro ⟨⟨HS, Hg⟩, Ho, ⟨%d0, H0⟩, ⟨%d1, H1⟩, H2⟩
      iapply (runMiddle c (grid0.coords t) _ _ _ _ _ _ _ _ (fun h => h0 ((hcondFirst t).mp h)) ((hcondLater t).mpr h0)
        (fun h => h3 ((hcondLast t).mp h)) (xblk m c t) (wblk m c t) _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The invariant at the region's entry and exit -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

set_option backward.isDefEq.respectTransparency.types false in
/-- Every weakly fair execution of the program terminates, and every final state has the pipeline's arrays at what the
    proof data computes: the inputs as launched, the output overwritten block by block by what the body left at each
    write-back. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.KBlocked

end
-- ==== Proof.RefPayload.lean ====
/-
  The body's arithmetic, read at one entry, on the extended reals.

  At a grid point the body forms the partial product of x's block (1024 × 1024) and w's block (512 × 1024),
  contracting the second axis of BOTH: entry (r, n) of the partial product is ∑ k < 1024, x₀ (r, k) · w₀ (n, k).
  At the first column block it stores that; at a later one it stores what the accumulator held plus that. The casts
  of a 1024 × 512 vector to the same shape are the identity.
-/
import proofs.«156567_g2000205639833174_pallasbulk_1132_16_alg».proof.Proof.Gen.ReferenceIdeal.Skeleton
import proofs.«156567_g2000205639833174_pallasbulk_1132_16_alg».proof.Proof.LibMatmulNT
import Idealize.ShloMosaic.Lib.Pipeline.Value

noncomputable section

open scoped BigOperators

namespace Cert.ReferenceIdeal.KBlocked

open Idealize.ShloMosaic Idealize.ShloMosaic.ValueIdx
open Cert.ReferenceIdeal Cert.ReferenceIdeal.Gen

/-- The body's contraction is the one that contracts the last axis of both operands: the same six lists. -/
theorem dims_eq : dot_S1024x1024_S512x1024_S1024x512_1_1_0_0_n_n = DotDims.transposedRhs 1024 1024 512 := rfl

/-- The partial product of the two blocks at (r, n): row r of x's block against row n of w's block. -/
theorem partial_apply (x0 : FVec Ideal S1024x1024 .f32) (w0 : FVec Ideal S512x1024 .f32) (r : Fin 1024) (n : Fin 512) :
    k0_pay1 (F := Ideal) x0 w0 (ix2 r n) = ∑ k : Fin 1024, x0 (ix2 r k) * w0 (ix2 n k) := by
  unfold k0_pay1
  exact MatmulNT.matmul_zero_apply (M := 1024) (K := 1024) (N := 512) none x0 w0 r n

/-- What the body stores at the first column block, at (r, n): the partial product. -/
theorem first_apply (x0 : FVec Ideal S1024x1024 .f32) (w0 : FVec Ideal S512x1024 .f32) (r : Fin 1024) (n : Fin 512) :
    k0_pay2 (F := Ideal) x0 w0 (ix2 r n) = ∑ k : Fin 1024, x0 (ix2 r k) * w0 (ix2 n k) := by
  unfold k0_pay2
  exact (congrFun (shapeCast_self (k0_pay1 (F := Ideal) x0 w0) shapeCasts_S1024x512_S1024x512) (ix2 r n)).trans
    (partial_apply x0 w0 r n)

/-- What the body stores at a later column block, at (r, n): what the accumulator held there plus the partial product. -/
theorem later_apply (x0 : FVec Ideal S1024x1024 .f32) (w0 : FVec Ideal S512x1024 .f32) (s : FVec Ideal S1024x512 .f32)
    (r : Fin 1024) (n : Fin 512) :
    k0_pay3 (F := Ideal) x0 w0 s (ix2 r n) = s (ix2 r n) + ∑ k : Fin 1024, x0 (ix2 r k) * w0 (ix2 n k) := by
  unfold k0_pay3
  refine (congrFun (shapeCast_self (addf s (k0_pay1 (F := Ideal) x0 w0)) shapeCasts_S1024x512_S1024x512) (ix2 r n)).trans ?_
  exact congrArg (s (ix2 r n) + ·) (partial_apply x0 w0 r n)

end Cert.ReferenceIdeal.KBlocked

end
-- ==== Proof.RefBlocks.lean ====
/-
  The two input blocks at a grid point, read at one entry of the argument arrays.

  Point t of the 8 × 8 × 4 grid has coordinates (i, j, k) = (t / 32, (t / 4) mod 8, t mod 4). x's window stages the
  1024 × 1024 block (i, k) of x, w's window the 512 × 1024 block (j, k) of w. An entry of a block sits in its array,
  on each axis, at block index × block extent + its coordinate inside the block: entry (r, q) of x's block is
  x (1024 i + r, 1024 k + q), entry (n, q) of w's block is w (512 j + n, 1024 k + q).
-/
import proofs.«156567_g2000205639833174_pallasbulk_1132_16_alg».proof.Proof.RefData
import Idealize.ShloMosaic.Lib.Pipeline.Value
import Idealize.ShloMosaic.Lib.ValueIdx

set_option maxRecDepth 16384

noncomputable section

namespace Cert.ReferenceIdeal.KBlocked

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen

variable {F : FTy → Type} [FloatOps F]
variable (m : (ℓ : Loc nD τ sig) → Buf (Elt F) ℓ)

/-- The block indices of the three windows at point t, decided once over the 256 points: x's block is (i, k), w's is
    (j, k), the output's is (i, j). -/
theorem blockIdx : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8)

/-- Entry (r, q) of x's block at point t is x at row 1024 · (t / 32) + r, column 1024 · (t mod 4) + q. -/
theorem xblk_apply (c : Dev nD) (t : Fin cfg0.N) (r q : Fin 1024) (a : Fin 8192) (b : Fin 4096)
    (ha : a.val = 1024 * (t.val / 32) + r.val) (hb : b.val = 1024 * (t.val % 4) + q.val) :
    xblk m c t (ix2 r q) = (m ((c : Thread nD τ).loc main_arg0) : S8192x4096.Idx → Elt F .f32) (ix2 a b) := by
  obtain ⟨e0, e1, -⟩ := blockIdx t
  unfold xblk iblk
  rw [View.read_apply]
  show V m c main_arg0 _ = m (c.tc.loc main_arg0) _
  unfold V
  congr 1
  funext ax
  apply Fin.ext
  match ax with
  | ⟨0, _⟩ => show win0_0.index t (0 : Fin 2) * 1024 + 1 * r.val = a.val; rw [e0, ha]; omega
  | ⟨1, _⟩ => show win0_0.index t (1 : Fin 2) * 1024 + 1 * q.val = b.val; rw [e1, hb]; omega

/-- Entry (n, q) of w's block at point t is w at row 512 · ((t / 4) mod 8) + n, column 1024 · (t mod 4) + q. -/
theorem wblk_apply (c : Dev nD) (t : Fin cfg0.N) (n : Fin 512) (q : Fin 1024) (a b : Fin 4096)
    (ha : a.val = 512 * (t.val / 4 % 8) + n.val) (hb : b.val = 1024 * (t.val % 4) + q.val) :
    wblk m c t (ix2 n q) = (m ((c : Thread nD τ).loc main_arg1) : S4096x4096.Idx → Elt F .f32) (ix2 a b) := by
  obtain ⟨-, -, e0, e1, -⟩ := blockIdx t
  unfold wblk iblk
  rw [View.read_apply]
  show V m c main_arg1 _ = m (c.tc.loc main_arg1) _
  unfold V
  congr 1
  funext ax
  apply Fin.ext
  match ax with
  | ⟨0, _⟩ => show win0_1.index t (0 : Fin 2) * 512 + 1 * n.val = a.val; rw [e0, ha]; omega
  | ⟨1, _⟩ => show win0_1.index t (1 : Fin 2) * 1024 + 1 * q.val = b.val; rw [e1, hb]; omega

end Cert.ReferenceIdeal.KBlocked

end
-- ==== Proof.RefAcc.lean ====
/-
  The accumulator after a last column block, entry by entry.

  Fix an output block (i, j) and an entry (r, n) of it: row a = 1024 i + r of x against row b = 512 j + n of w. The
  four points (i, j, 0 … 3) run one after the other. At k = 0 the accumulator takes the partial sum over column block
  0; at k = 1, 2, 3 it takes what it held plus the partial sum over column block k. So after k = 3 it holds

      ((S₀ + S₁) + S₂) + S₃,      S_k = ∑ q < 1024, x (a, 1024 k + q) · w (b, 1024 k + q),

  which is the whole sum over the 4096 columns, regrouped: the linear layer's entry (a, b).
-/
import proofs.«156567_g2000205639833174_pallasbulk_1132_16_alg».proof.Proof.RefData
import proofs.«156567_g2000205639833174_pallasbulk_1132_16_alg».proof.Proof.RefPayload
import proofs.«156567_g2000205639833174_pallasbulk_1132_16_alg».proof.Proof.RefBlocks
import proofs.«156567_g2000205639833174_pallasbulk_1132_16_alg».proof.Proof.Spec

set_option maxRecDepth 16384

noncomputable section

open scoped BigOperators

namespace Cert.ReferenceIdeal.KBlocked

open Idealize.ShloMosaic Idealize.ShloMosaic.TcCoe Idealize.ShloMosaic.ValueIdx
open Idealize.SL.Sem
open Cert.ReferenceIdeal Cert.ReferenceIdeal.Gen
open Cert.Linear

variable (m : (ℓ : Loc nD τ sig) → Buf (Elt Ideal) ℓ)

/-- x and w as core c finds them. -/
abbrev argX (c : Dev nD) : FVec Ideal ⟨2, ![8192, 4096]⟩ .f32 := m ((c : Thread nD τ).loc main_arg0)
abbrev argW (c : Dev nD) : FVec Ideal ⟨2, ![4096, 4096]⟩ .f32 := m ((c : Thread nD τ).loc main_arg1)

/-- The partial sum over column block kb of row a of x against row b of w. -/
abbrev colSum (x : FVec Ideal ⟨2, ![8192, 4096]⟩ .f32) (w : FVec Ideal ⟨2, ![4096, 4096]⟩ .f32)
    (a : Fin 8192) (b : Fin 4096) (kb : Fin 4) : EReal :=
  ∑ q : Fin 1024, x (ix2 a (colOf kb q)) * w (ix2 b (colOf kb q))

/-- The partial product of the point's two blocks at (r, n) is the partial sum over the point's column block. -/
theorem blockSum (c : Dev nD) (t : Fin cfg0.N) (kb : Fin 4) (hk : t.val % 4 = kb.val) (r : Fin 1024) (n : Fin 512)
    (a : Fin 8192) (b : Fin 4096) (ha : a.val = 1024 * (t.val / 32) + r.val) (hb : b.val = 512 * (t.val / 4 % 8) + n.val) :
    (∑ q : Fin 1024, xblk m c t (ix2 r q) * wblk m c t (ix2 n q)) = colSum (argX m c) (argW m c) a b kb :=
  Finset.sum_congr rfl fun q _ => by
    rw [xblk_apply m c t r q a (colOf kb q) ha (by rw [colOf_val, hk]),
      wblk_apply m c t n q b (colOf kb q) hb (by rw [colOf_val, hk])]

/-- After a point at the first column block, entry (r, n) of the accumulator is the partial sum over block 0. -/
theorem acc_first_entry (c : Dev nD) (t : Fin cfg0.N) (h : t.val % 4 = 0) (r : Fin 1024) (n : Fin 512)
    (a : Fin 8192) (b : Fin 4096) (ha : a.val = 1024 * (t.val / 32) + r.val) (hb : b.val = 512 * (t.val / 4 % 8) + n.val) :
    acc m c t.val t.isLt (ix2 r n) = colSum (argX m c) (argW m c) a b 0 :=
  ((congrFun (acc_first m c t h) (ix2 r n)).trans (first_apply (xblk m c t) (wblk m c t) r n)).trans
    (blockSum m c t 0 h r n a b ha hb)

/-- After a point at a later column block kb, entry (r, n) of the accumulator is what the point before left there
    plus the partial sum over block kb. -/
theorem acc_later_entry (c : Dev nD) (t : Fin cfg0.N) (kb : Fin 4) (hk : t.val % 4 = kb.val) (h : ¬ t.val % 4 = 0)
    (r : Fin 1024) (n : Fin 512) (a : Fin 8192) (b : Fin 4096)
    (ha : a.val = 1024 * (t.val / 32) + r.val) (hb : b.val = 512 * (t.val / 4 % 8) + n.val) :
    acc m c t.val t.isLt (ix2 r n)
      = acc m c (t.val - 1) (Nat.lt_of_le_of_lt (Nat.sub_le _ _) t.isLt) (ix2 r n) + colSum (argX m c) (argW m c) a b kb :=
  ((congrFun (acc_later m c t h) (ix2 r n)).trans
      (later_apply (xblk m c t) (wblk m c t) (acc m c (t.val - 1) (Nat.lt_of_le_of_lt (Nat.sub_le _ _) t.isLt)) r n)).trans
    (congrArg (acc m c (t.val - 1) (Nat.lt_of_le_of_lt (Nat.sub_le _ _) t.isLt) (ix2 r n) + ·) (blockSum m c t kb hk r n a b ha hb))

/-- After a point at the last column block, entry (r, n) of the accumulator is the linear layer's entry (a, b): the
    three points before it are the same output block's column blocks 2, 1, 0. -/
theorem acc_last_entry (c : Dev nD) (t : Fin cfg0.N) (h3 : t.val % 4 = 3) (r : Fin 1024) (n : Fin 512)
    (a : Fin 8192) (b : Fin 4096) (ha : a.val = 1024 * (t.val / 32) + r.val) (hb : b.val = 512 * (t.val / 4 % 8) + n.val) :
    acc m c t.val t.isLt (ix2 r n) = linear (argX m c) (argW m c) (ix2 a b) := by
  have hlt : t.val < cfg0.N := t.isLt
  let t1 : Fin cfg0.N := ⟨t.val - 1, by omega⟩
  let t2 : Fin cfg0.N := ⟨t.val - 2, by omega⟩
  let t3 : Fin cfg0.N := ⟨t.val - 3, by omega⟩
  have e3 : acc m c t.val t.isLt (ix2 r n) = acc m c t1.val t1.isLt (ix2 r n) + colSum (argX m c) (argW m c) a b 3 :=
    acc_later_entry m c t 3 h3 (by omega) r n a b ha hb
  have e2 : acc m c t1.val t1.isLt (ix2 r n) = acc m c t2.val t2.isLt (ix2 r n) + colSum (argX m c) (argW m c) a b 2 :=
    acc_later_entry m c t1 2 (by show (t.val - 1) % 4 = 2; omega) (by show ¬ (t.val - 1) % 4 = 0; omega) r n a b
      (by show a.val = 1024 * ((t.val - 1) / 32) + r.val; omega) (by show b.val = 512 * ((t.val - 1) / 4 % 8) + n.val; omega)
  have e1 : acc m c t2.val t2.isLt (ix2 r n) = acc m c t3.val t3.isLt (ix2 r n) + colSum (argX m c) (argW m c) a b 1 :=
    acc_later_entry m c t2 1 (by show (t.val - 2) % 4 = 1; omega) (by show ¬ (t.val - 2) % 4 = 0; omega) r n a b
      (by show a.val = 1024 * ((t.val - 2) / 32) + r.val; omega) (by show b.val = 512 * ((t.val - 2) / 4 % 8) + n.val; omega)
  have e0 : acc m c t3.val t3.isLt (ix2 r n) = colSum (argX m c) (argW m c) a b 0 :=
    acc_first_entry m c t3 (by show (t.val - 3) % 4 = 0; omega) r n a b
      (by show a.val = 1024 * ((t.val - 3) / 32) + r.val; omega) (by show b.val = 512 * ((t.val - 3) / 4 % 8) + n.val; omega)
  rw [e3, e2, e1, e0, linear_apply]
  exact (sum_colBlocks fun k => argX m c (ix2 a k) * argW m c (ix2 b k)).symm

end Cert.ReferenceIdeal.KBlocked

end
-- ==== Proof.RefValue.lean ====
/-
  The K-blocked program's result array is the linear layer y = x · wᵀ of its arguments.

  The output's window stages the 1024 × 512 block (i, j) of the result and writes it back exactly at the points with
  k = 3, from the accumulator. Entry (r, n) of that block sits in the result at (1024 i + r, 512 j + n), and what the
  accumulator holds there after the last column block is the linear layer's entry at that place. Every entry (a, b)
  of the result lies in the block (a / 1024, b / 512), written back at the point ((a / 1024) · 8 + b / 512) · 4 + 3.
  So the result array ends holding the linear layer of x and w.
-/
import proofs.«156567_g2000205639833174_pallasbulk_1132_16_alg».proof.Proof.RefData
import proofs.«156567_g2000205639833174_pallasbulk_1132_16_alg».proof.Proof.RefAcc
import proofs.«156567_g2000205639833174_pallasbulk_1132_16_alg».proof.Proof.Spec
import proofs.«156567_g2000205639833174_pallasbulk_1132_16_alg».proof.Proof.LibMatmulNT
import Idealize.ShloMosaic.Lib.Pipeline.Value

set_option maxRecDepth 16384

noncomputable section

namespace Cert.ReferenceIdeal.KBlocked

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.Linear

variable (m : (ℓ : Loc nD τ sig) → Buf (Elt Ideal) ℓ)

/-- What a point with k = 3 writes back is its block of the linear layer of x and w. -/
theorem flushed_eq (c : Dev nD) (t : Fin cfg0.N) (hf : (cfg0.win 2).flush t = true) :
    (dats (F := Ideal) m 0 c).flushed 2 t
      = ((cfg0.win 2).blk t).view.read (Elt Ideal) (linear (argX m c) (argW m c)) := by
  have h3 : t.val % 4 = 3 := (flush0_2 t).mp hf
  have hN : cfg0.N = 256 := N_0
  have ht : t.val < 256 := by have := t.isLt; omega
  obtain ⟨-, -, -, -, e0, e1⟩ := blockIdx t
  show (cfg0.win 2).cut (grid0.coords t) ((dats m 0 c).after 2 t) = _
  rw [after2]
  funext j
  obtain ⟨r, n, rfl⟩ : ∃ (r : Fin 1024) (n : Fin 512), j = ix2 r n := ⟨j 0, j 1, eq_ix2 j⟩
  rw [View.read_apply]
  show acc m c t.val t.isLt (ix2 r n) = linear (argX m c) (argW m c) (((cfg0.win 2).blk t).view.emb (ix2 r n))
  have hemb : ((cfg0.win 2).blk t).view.emb (ix2 r n)
      = ix2 (⟨1024 * (t.val / 32) + r.val, by omega⟩ : Fin 8192) (⟨512 * (t.val / 4 % 8) + n.val, by omega⟩ : Fin 4096) := by
    funext ax
    apply Fin.ext
    match ax with
    | ⟨0, _⟩ => show win0_2.index t (0 : Fin 2) * 1024 + 1 * r.val = 1024 * (t.val / 32) + r.val; rw [e0]; omega
    | ⟨1, _⟩ => show win0_2.index t (1 : Fin 2) * 512 + 1 * n.val = 512 * (t.val / 4 % 8) + n.val; rw [e1]; omega
  rw [hemb]
  exact acc_last_entry m c t h3 r n _ _ rfl rfl

/-- An entry of the result is in point t's block iff each coordinate is in the block's range on its axis. -/
theorem mem_blk (t : Fin cfg0.N) (i : S8192x4096.Idx) :
    i ∈ ((cfg0.win 2).blk t).view.set
      ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every entry (a, b) of the result is in the block written back at the point ((a / 1024) · 8 + b / 512) · 4 + 3. -/
theorem cover (i : S8192x4096.Idx) :
    ∃ t : Fin cfg0.N, (cfg0.win 2).flush t = true ∧ i ∈ ((cfg0.win 2).blk t).view.set := by
  have hN : cfg0.N = 256 := N_0
  have h0 : (i 0).val < 8192 := (i 0).isLt
  have h1 : (i 1).val < 4096 := (i 1).isLt
  have hlt : ((i 0).val / 1024 * 8 + (i 1).val / 512) * 4 + 3 < cfg0.N := by omega
  obtain ⟨t, tv⟩ : ∃ t : Fin cfg0.N, t.val = ((i 0).val / 1024 * 8 + (i 1).val / 512) * 4 + 3 := ⟨⟨_, hlt⟩, rfl⟩
  obtain ⟨-, -, -, -, e0, e1⟩ := blockIdx t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e0, tv]; omega
  | ⟨1, _⟩ =>
    show win0_2.index t (1 : Fin 2) * 512 ≤ (i 1).val ∧ (i 1).val < win0_2.index t (1 : Fin 2) * 512 + 512
    rw [e1, tv]; omega

/-- The result array after the run: the linear layer of the two arguments. -/
theorem final (c : Dev nD) :
    (dats (F := Ideal) m 0 c).arrAt 2 cfg0.N
      = Cert.Linear.linear (m ((c : Thread nD τ).loc main_arg0)) (m ((c : Thread nD τ).loc main_arg1)) :=
  (dats (F := Ideal) m 0 c).arrAt_eq_of_cover 2 (linear (argX m c) (argW m c)) (fun t hf => flushed_eq m c t hf) cover

end Cert.ReferenceIdeal.KBlocked

end
-- ==== Proof.RefRun.lean ====
/-
  The K-blocked program's run with its result named: the output array ends at the linear layer y = x · wᵀ of the two
  argument arrays, and the argument arrays end unchanged.

  The frame run leaves every array of the pipeline at what the proof data computes; for the output that is the linear
  layer (each block written back once, at its last k, holding the four partial sums added up), for an input its
  contents at launch.
-/
import proofs.«156567_g2000205639833174_pallasbulk_1132_16_alg».proof.Proof.RefBody
import proofs.«156567_g2000205639833174_pallasbulk_1132_16_alg».proof.Proof.RefValue

noncomputable section

namespace Cert.ReferenceIdeal.KBlocked

open Idealize.ShloMosaic Idealize.ShloMosaic.TcCoe Idealize.SL.Sem
open Idealize.ShloMosaic.Pipeline (Dat)
open Cert.ReferenceIdeal Cert.ReferenceIdeal.Gen

/-- At the ideal values: the program terminates with its result the linear layer of its arguments, which it leaves
    as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
          = Cert.Linear.linear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (final m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main (F := Ideal) m ρ)

end Cert.ReferenceIdeal.KBlocked

end
-- ==== Proof.lean ====
/-
  The certificate: a linear layer computed two ways is one function.

  For x of 8192 rows and w of 4096 rows, each of 4096 columns, both programs compute y = x · wᵀ. The first forms every
  entry as ONE sum over the 4096 columns: on a grid of 32 points, each point multiplies a block of 256 rows of x against
  the whole of w (both narrowed to bf16 first, which at the ideal values changes nothing). The second cuts the columns
  into four blocks of 1024: on a grid of 8 × 8 × 4 points it forms, for each 1024 × 512 block of y, the four partial
  products one after the other, adding each into an accumulator it keeps between points, and writes the block out after
  the fourth. On the extended reals a finite sum may be regrouped freely (addition is commutative and associative, with
  no condition on the terms), so the two results agree entry by entry for all inputs; the precondition is not used.

  The three frames: the first program's, at the bit level and at the ideal values, are its generated frame; the
  second's is the run of its body case by case with the accumulator's contents carried from point to point
  (Proof/RefBody.lean). Nothing was rewritten between the first program and its idealization, so `preserves` is trivial.
  The value claim sets the two runs side by side: each ends at `Cert.Linear.linear` of its arguments
  (Proof/KernelValue.lean, Proof/RefRun.lean).
-/
import proofs.«156567_g2000205639833174_pallasbulk_1132_16_alg».proof.Defs
import proofs.«156567_g2000205639833174_pallasbulk_1132_16_alg».proof.Proof.Gen.Kernel
import proofs.«156567_g2000205639833174_pallasbulk_1132_16_alg».proof.Proof.Gen.Kernel.Frame
import proofs.«156567_g2000205639833174_pallasbulk_1132_16_alg».proof.Proof.Gen.KernelIdeal
import proofs.«156567_g2000205639833174_pallasbulk_1132_16_alg».proof.Proof.Gen.KernelIdeal.Frame
import proofs.«156567_g2000205639833174_pallasbulk_1132_16_alg».proof.Proof.Gen.ReferenceIdeal
import proofs.«156567_g2000205639833174_pallasbulk_1132_16_alg».proof.Proof.Gen.Pre_finite_inputs
import proofs.«156567_g2000205639833174_pallasbulk_1132_16_alg».proof.Proof.KernelValue
import proofs.«156567_g2000205639833174_pallasbulk_1132_16_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  Cert.ReferenceIdeal.KBlocked.frame (F := Ideal) m ρ

/-- Both runs end at the linear layer of their arguments; the arguments agree. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.OneDot.run m ρ, ?_⟩
  refine (θ_run Cert.ReferenceIdeal.defs _ _).mono (fun r h c => ⟨?_, (h c).2⟩) (Cert.ReferenceIdeal.KBlocked.run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
